-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024x32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  main_v23

def fn {F : FTy → Type} [FloatOps F] (main_arg0 : FVec F S8x8192x1024 .f32) (main_arg1 : FVec F S1024x1024 .f32) (main_arg2 : FVec F S1024 .f32) (main_arg3 : FVec F S1024x32 .f32) (main_arg4 : FVec F S1024x32 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_v13 main_v16
-- ==== Kernel.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S65536x1024 : Shape := ⟨2, ![65536, 1024]⟩
abbrev S32x1024 : Shape := ⟨2, ![32, 1024]⟩
abbrev S1x1024 : Shape := ⟨2, ![1, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x32, .f32⟩
  | .hbm, ⟨4, _⟩ => ⟨S1024x32, .f32⟩
  | .hbm, ⟨5, _⟩ => ⟨S65536x1024, .f32⟩
  | .hbm, ⟨6, _⟩ => ⟨S1024x1024, .f32⟩
  | .hbm, ⟨7, _⟩ => ⟨S1024x1024, .bf16⟩
  | .hbm, ⟨8, _⟩ => ⟨S32x1024, .f32⟩
  | .hbm, ⟨9, _⟩ => ⟨S32x1024, .bf16⟩
  | .hbm, ⟨10, _⟩ => ⟨S32x1024, .f32⟩
  | .hbm, ⟨11, _⟩ => ⟨S32x1024, .bf16⟩
  | .hbm, ⟨12, _⟩ => ⟨S1x1024, .f32⟩
  | .hbm, ⟨13, _⟩ => ⟨S65536x1024, .f32⟩
  | .hbm, ⟨14, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S32x1024, .bf16⟩
  | .local _ .vmem, ⟨5, _⟩ => ⟨S32x1024, .bf16⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x8192x1024_S65536x1024 : S8x8192x1024.ShapeCasts S65536x1024
  transposes_S1024x1024_S1024x1024_1_0 : S1024x1024.Transposes [1, 0] S1024x1024
  bitsLt_bf16_f32 : FTy.bits .bf16 < FTy.bits .f32
  transposes_S1024x32_S32x1024_1_0 : S1024x32.Transposes [1, 0] S32x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S8x8192x1024 : S65536x1024.ShapeCasts S8x8192x1024
  dot_S1024x1024_S1024x1024_S1024x1024_1_0_0_1_n_n_wf : DotDims.WF S1024x1024 S1024x1024 S1024x1024 [1] [0] [0] [1] [] []
  dot_S1024x1024_S32x1024_S1024x32_1_1_0_0_n_n_wf : DotDims.WF S1024x1024 S32x1024 S1024x32 [1] [1] [0] [0] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .bf16 = 32 ∨ (Rect.block (s := S32x1024) S32x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .bf16 = 32 ∨ (Rect.block (s := S32x1024) S32x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S32x1024_S1024x32_1_1_0_0_n_n : DotDims S1024x1024 S32x1024 S1024x32 where
  lhsContracting := [1]
  rhsContracting := [1]
  lhsNonContracting := [0]
  rhsNonContracting := [0]
  lhsBatch := []
  rhsBatch := []
  wf := dot_S1024x1024_S32x1024_S1024x32_1_1_0_0_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S1x1x1024 : Shape := ⟨3, ![1, 1, 1024]⟩
abbrev S8x8192x32 : Shape := ⟨3, ![8, 8192, 32]⟩

abbrev nBuf : Space → Nat
  | .hbm => 12
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x32, .f32⟩
  | .hbm, ⟨4, _⟩ => ⟨S1024x32, .f32⟩
  | .hbm, ⟨5, _⟩ => ⟨S8x8192x1024, .f32⟩
  | .hbm, ⟨6, _⟩ => ⟨S1x1x1024, .f32⟩
  | .hbm, ⟨7, _⟩ => ⟨S8x8192x1024, .f32⟩
  | .hbm, ⟨8, _⟩ => ⟨S8x8192x1024, .f32⟩
  | .hbm, ⟨9, _⟩ => ⟨S8x8192x32, .f32⟩
  | .hbm, ⟨10, _⟩ => ⟨S8x8192x1024, .f32⟩
  | .hbm, ⟨11, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S1024x1024_S8x8192x1024_2_1_01_0_n_n_wf : DotDims.WF S8x8192x1024 S1024x1024 S8x8192x1024 [2] [1] [0, 1] [0] [] []
  dot_S8x8192x1024_S1024x32_S8x8192x32_2_0_01_1_n_n_wf : DotDims.WF S8x8192x1024 S1024x32 S8x8192x32 [2] [0] [0, 1] [1] [] []
  dot_S8x8192x32_S1024x32_S8x8192x1024_2_1_01_0_n_n_wf : DotDims.WF S8x8192x32 S1024x32 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf
def dot_S8x8192x1024_S1024x32_S8x8192x32_2_0_01_1_n_n : DotDims S8x8192x1024 S1024x32 S8x8192x32 where
  lhsContracting := [2]
  rhsContracting := [0]
  lhsNonContracting := [0, 1]
  rhsNonContracting := [1]
  lhsBatch := []
  rhsBatch := []
  wf := dot_S8x8192x1024_S1024x32_S8x8192x32_2_0_01_1_n_n_wf
def dot_S8x8192x32_S1024x32_S8x8192x1024_2_1_01_0_n_n : DotDims S8x8192x32 S1024x32 S8x8192x1024 where
  lhsContracting := [2]
  rhsContracting := [1]
  lhsNonContracting := [0, 1]
  rhsNonContracting := [0]
  lhsBatch := []
  rhsBatch := []
  wf := dot_S8x8192x32_S1024x32_S8x8192x1024_2_1_01_0_n_n_wf

class Facts : Prop extends Facts₀ where

variable [Facts]
-- ==== Proof.Spec.lean ====
/-
  The function both programs compute, written entry by entry over the extended reals.

  For an input x of shape [8, 8192, 1024], a weight W [1024, 1024] (rows = output features), a bias b [1024] and two
  rank-32 factors V_r [1024, 32] (input features × rank) and C [1024, 32] (output features × rank), entry (a, s, o) of
  the result is

      ( Σ_k x[a,s,k] · W[o,k]  +  b[o] )  +  Σ_ρ ( Σ_k x[a,s,k] · V_r[k,ρ] ) · C[o,ρ] :

  a dense linear map plus its bias, and then a low-rank correction kept in factored form (`entry`, `result`).

  The same number is reached from a flattened and transposed layout: rows r = a·8192 + s of a matrix x2 [R, 1024], the
  weight given as Wt[k,o], the bias as one row b2[0,o], the factors as Vt[ρ,k] and Ct[ρ,o] (`rowEntry`, `rowResult`).
  `rowEntry_eq_entry` says so entry by entry whenever the five layouts agree element for element; it only renames the
  summands, so no law of arithmetic — and in particular no finiteness — is involved.
-/
import Idealize.ShloMosaic.Lib.ValueIdx
import Idealize.ShloMosaic.PureOps.Ideal

noncomputable section

namespace Cert.CorrectedLinear

open Idealize.ShloMosaic Idealize.ShloMosaic.ValueIdx
open scoped BigOperators

/-- Entry (a, s, o) of the corrected linear map of x, from W, b, V_r and C in their original layouts. -/
def entry (x : (⟨3, ![8, 8192, 1024]⟩ : Shape).Idx → EReal) (W : (⟨2, ![1024, 1024]⟩ : Shape).Idx → EReal)
    (b : (⟨1, ![1024]⟩ : Shape).Idx → EReal) (Vr C : (⟨2, ![1024, 32]⟩ : Shape).Idx → EReal)
    (a : Fin 8) (s : Fin 8192) (o : Fin 1024) : EReal :=
  (∑ k : Fin 1024, x (ix3 a s k) * W (ix2 o k) + b (ix1 o))
    + ∑ ρ : Fin 32, (∑ k : Fin 1024, x (ix3 a s k) * Vr (ix2 k ρ)) * C (ix2 o ρ)

/-- The whole result [8, 8192, 1024]. -/
def result (x : (⟨3, ![8, 8192, 1024]⟩ : Shape).Idx → EReal) (W : (⟨2, ![1024, 1024]⟩ : Shape).Idx → EReal)
    (b : (⟨1, ![1024]⟩ : Shape).Idx → EReal) (Vr C : (⟨2, ![1024, 32]⟩ : Shape).Idx → EReal) :
    (⟨3, ![8, 8192, 1024]⟩ : Shape).Idx → EReal :=
  fun i => entry x W b Vr C (i 0) (i 1) (i 2)

theorem result_ix3 (x : (⟨3, ![8, 8192, 1024]⟩ : Shape).Idx → EReal) (W : (⟨2, ![1024, 1024]⟩ : Shape).Idx → EReal)
    (b : (⟨1, ![1024]⟩ : Shape).Idx → EReal) (Vr C : (⟨2, ![1024, 32]⟩ : Shape).Idx → EReal)
    (a : Fin 8) (s : Fin 8192) (o : Fin 1024) : result x W b Vr C (ix3 a s o) = entry x W b Vr C a s o := rfl

/-- Entry (r, q) of the same map on R flattened rows, from the transposed layouts: x2[r,k], Wt[k,q], the bias as the one
    row b2[0,q], Vt[ρ,k] and Ct[ρ,q]. -/
def rowEntry {R : Nat} (x2 : (⟨2, ![R, 1024]⟩ : Shape).Idx → EReal) (wt : (⟨2, ![1024, 1024]⟩ : Shape).Idx → EReal)
    (b2 : (⟨2, ![1, 1024]⟩ : Shape).Idx → EReal) (vt ct : (⟨2, ![32, 1024]⟩ : Shape).Idx → EReal)
    (r : Fin R) (q : Fin 1024) : EReal :=
  (∑ k : Fin 1024, x2 (ix2 r k) * wt (ix2 k q) + b2 (ix2 (0 : Fin 1) q))
    + ∑ ρ : Fin 32, (∑ k : Fin 1024, x2 (ix2 r k) * vt (ix2 ρ k)) * ct (ix2 ρ q)

/-- The whole flattened result [R, 1024]. -/
def rowResult {R : Nat} (x2 : (⟨2, ![R, 1024]⟩ : Shape).Idx → EReal) (wt : (⟨2, ![1024, 1024]⟩ : Shape).Idx → EReal)
    (b2 : (⟨2, ![1, 1024]⟩ : Shape).Idx → EReal) (vt ct : (⟨2, ![32, 1024]⟩ : Shape).Idx → EReal) :
    (⟨2, ![R, 1024]⟩ : Shape).Idx → EReal :=
  fun j => rowEntry x2 wt b2 vt ct (j 0) (j 1)

theorem rowResult_ix2 {R : Nat} (x2 : (⟨2, ![R, 1024]⟩ : Shape).Idx → EReal) (wt : (⟨2, ![1024, 1024]⟩ : Shape).Idx → EReal)
    (b2 : (⟨2, ![1, 1024]⟩ : Shape).Idx → EReal) (vt ct : (⟨2, ![32, 1024]⟩ : Shape).Idx → EReal) (r : Fin R) (q : Fin 1024) :
    rowResult x2 wt b2 vt ct (ix2 r q) = rowEntry x2 wt b2 vt ct r q := rfl

/-- A row entry depends on x2 only through row r: two matrices that agree on that row give the same entry. -/
theorem rowEntry_congr_row {R R' : Nat} (x2 : (⟨2, ![R, 1024]⟩ : Shape).Idx → EReal) (y2 : (⟨2, ![R', 1024]⟩ : Shape).Idx → EReal)
    (wt : (⟨2, ![1024, 1024]⟩ : Shape).Idx → EReal) (b2 : (⟨2, ![1, 1024]⟩ : Shape).Idx → EReal)
    (vt ct : (⟨2, ![32, 1024]⟩ : Shape).Idx → EReal) (r : Fin R) (r' : Fin R') (q : Fin 1024)
    (hx : ∀ k : Fin 1024, x2 (ix2 r k) = y2 (ix2 r' k)) :
    rowEntry x2 wt b2 vt ct r q = rowEntry y2 wt b2 vt ct r' q := by
  unfold rowEntry
  simp only [hx]

/-- When the flattened and transposed layouts hold the same numbers as the original ones, element for element, the row
    entry is the entry: the two double sums have the same summands. -/
theorem rowEntry_eq_entry {R : Nat} (x : (⟨3, ![8, 8192, 1024]⟩ : Shape).Idx → EReal) (W : (⟨2, ![1024, 1024]⟩ : Shape).Idx → EReal)
    (b : (⟨1, ![1024]⟩ : Shape).Idx → EReal) (Vr C : (⟨2, ![1024, 32]⟩ : Shape).Idx → EReal)
    (x2 : (⟨2, ![R, 1024]⟩ : Shape).Idx → EReal) (wt : (⟨2, ![1024, 1024]⟩ : Shape).Idx → EReal)
    (b2 : (⟨2, ![1, 1024]⟩ : Shape).Idx → EReal) (vt ct : (⟨2, ![32, 1024]⟩ : Shape).Idx → EReal)
    (r : Fin R) (a : Fin 8) (s : Fin 8192) (o : Fin 1024)
    (hx : ∀ k : Fin 1024, x2 (ix2 r k) = x (ix3 a s k))
    (hw : ∀ k : Fin 1024, wt (ix2 k o) = W (ix2 o k))
    (hb : b2 (ix2 (0 : Fin 1) o) = b (ix1 o))
    (hv : ∀ (ρ : Fin 32) (k : Fin 1024), vt (ix2 ρ k) = Vr (ix2 k ρ))
    (hc : ∀ ρ : Fin 32, ct (ix2 ρ o) = C (ix2 o ρ)) :
    rowEntry x2 wt b2 vt ct r o = entry x W b Vr C a s o := by
  unfold rowEntry entry
  simp only [hx, hw, hb, hv, hc]

end Cert.CorrectedLinear

end
-- ==== Proof.RefValue.lean ====
/-
  The reference computes `result`.

  Its seven host operations are: the product of x with W over the last axis of each (entry (a,s,o) is Σ_k x[a,s,k]·W[o,k]),
  the bias broadcast along the two leading axes and added, the product of x with V_r (entry (a,s,ρ) is Σ_k x[a,s,k]·V_r[k,ρ]),
  the product of that with C over the rank axis (entry (a,s,o) is Σ_ρ (…)[a,s,ρ]·C[o,ρ]), and the final sum.
  Each operation is read at an index by the generated reading lemmas; what is written here is only which element of
  which argument each of their composed index maps names at the entry (a, s, o), and that the resulting expression is
  `entry` as written.
-/
import proofs.«109856_j70317204570758_2_alg».proof.Proof.Gen.ReferenceIdeal.Read
import proofs.«109856_j70317204570758_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.CorrectedLinear
open scoped BigOperators

/-! ### The operand indices at the entry (a, s, o) -/

/-- In x·Wᵀ the left factor at contraction position k is x[a,s,k] … -/
theorem lidx_v0 (a : Fin 8) (s : Fin 8192) (o k : Fin 1024) : lidx_main_v0 (ix3 a s o) k = ix3 a s k :=
  funext fun d => Fin.ext (by match d with | ⟨0, _⟩ => rfl | ⟨1, _⟩ => rfl | ⟨2, _⟩ => rfl)
/-- … and the right factor is W[o,k]. -/
theorem ridx_v0 (a : Fin 8) (s : Fin 8192) (o k : Fin 1024) : ridx_main_v0 (ix3 a s o) k = ix2 o k :=
  funext fun d => Fin.ext (by match d with | ⟨0, _⟩ => rfl | ⟨1, _⟩ => rfl)
/-- The broadcast bias at (a, s, o) is b[o]. -/
theorem idx_bias (a : Fin 8) (s : Fin 8192) (o : Fin 1024) : idx_main_v1 (idx_main_v2 (ix3 a s o)) = ix1 o :=
  funext fun d => Fin.ext (by match d with | ⟨0, _⟩ => rfl)
/-- In x·V_r the factors at (a, s, ρ) and position k are x[a,s,k] and V_r[k,ρ]. -/
theorem lidx_v4 (a : Fin 8) (s : Fin 8192) (ρ : Fin 32) (k : Fin 1024) : lidx_main_v4 (ix3 a s ρ) k = ix3 a s k :=
  funext fun d => Fin.ext (by match d with | ⟨0, _⟩ => rfl | ⟨1, _⟩ => rfl | ⟨2, _⟩ => rfl)
theorem ridx_v4 (a : Fin 8) (s : Fin 8192) (ρ : Fin 32) (k : Fin 1024) : ridx_main_v4 (ix3 a s ρ) k = ix2 k ρ :=
  funext fun d => Fin.ext (by match d with | ⟨0, _⟩ => rfl | ⟨1, _⟩ => rfl)
/-- In (x·V_r)·Cᵀ the factors at (a, s, o) and rank position ρ are (x·V_r)[a,s,ρ] and C[o,ρ]. -/
theorem lidx_v5 (a : Fin 8) (s : Fin 8192) (o : Fin 1024) (ρ : Fin 32) : lidx_main_v5 (ix3 a s o) ρ = ix3 a s ρ :=
  funext fun d => Fin.ext (by match d with | ⟨0, _⟩ => rfl | ⟨1, _⟩ => rfl | ⟨2, _⟩ => rfl)
theorem ridx_v5 (a : Fin 8) (s : Fin 8192) (o : Fin 1024) (ρ : Fin 32) : ridx_main_v5 (ix3 a s o) ρ = ix2 o ρ :=
  funext fun d => Fin.ext (by match d with | ⟨0, _⟩ => rfl | ⟨1, _⟩ => rfl)

/-! ### The reference's last stage is `result` -/

/-- Entry by entry, the reference's composed operations are (Σ_k x·W + b) + Σ_ρ (Σ_k x·V_r)·C. -/
theorem reference_eq_result (x0 : (⟨S8x8192x1024, .f32⟩ : BufTy).Contents (Elt Ideal)) (x1 : (⟨S1024x1024, .f32⟩ : BufTy).Contents (Elt Ideal))
    (x2 : (⟨S1024, .f32⟩ : BufTy).Contents (Elt Ideal)) (x3 x4 : (⟨S1024x32, .f32⟩ : BufTy).Contents (Elt Ideal)) :
    val_main_v6 (F := Ideal) x0 x1 x2 x3 x4 = result x0 x1 x2 x3 x4 := by
  funext i
  obtain ⟨a, s, o, rfl⟩ : ∃ (a : Fin 8) (s : Fin 8192) (o : Fin 1024), i = ix3 a s o := ⟨i 0, i 1, i 2, eq_ix3 i⟩
  rw [val_main_v6_apply, val_main_v3_apply, val_main_v0_apply, val_main_v2_apply, val_main_v1_apply, val_main_v5_apply,
    result_ix3]
  simp only [val_main_v4_apply, lidx_v0, ridx_v0, idx_bias, lidx_v4, ridx_v4, lidx_v5, ridx_v5]
  rfl

end Cert.ReferenceIdeal.RefValue

end
-- ==== Proof.Products.lean ====
/-
  The body's three matrix products, read entry by entry over the extended reals.

  Each is a product into an all-zero accumulator, so an entry is the bare sum of the products of the operands' entries along
  the contracted axis:
    * the dense product  [1024,1024] · [1024,1024] contracts the left's columns with the right's ROWS:    Σ_k l[p,k] · r[k,q];
    * the projection     [1024,1024] · [32,1024]   contracts the left's columns with the right's COLUMNS: Σ_k l[p,k] · r[q,k]
      (the right operand is stored transposed);
    * the lift           [1024,32]   · [32,1024]   contracts the 32 rank positions:                        Σ_ρ l[p,ρ] · r[ρ,q].
  For each, the dimension numbers are unfolded once to name which coordinate of each operand index is the output's and
  which is the contraction's; the sum over the one-axis contraction index is then re-indexed by its coordinate.
-/
import proofs.«109856_j70317204570758_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx
open scoped BigOperators

/-! ### The dense product, rows by rows of the right operand -/

theorem dense_lhs_0 (j : S1024x1024.Idx) (κ : dot_S1024x1024_S1024x1024_S1024x1024_1_0_0_1_n_n.contr.Idx) : (dot_S1024x1024_S1024x1024_S1024x1024_1_0_0_1_n_n.lhsIdx j κ 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dense_lhs_1 (j : S1024x1024.Idx) (κ : dot_S1024x1024_S1024x1024_S1024x1024_1_0_0_1_n_n.contr.Idx) : (dot_S1024x1024_S1024x1024_S1024x1024_1_0_0_1_n_n.lhsIdx j κ 1).val = (κ ⟨0, by decide⟩).val :=
  dot_S1024x1024_S1024x1024_S1024x1024_1_0_0_1_n_n.lhsIdx_val_of_single rfl j κ
theorem dense_rhs_1 (j : S1024x1024.Idx) (κ : dot_S1024x1024_S1024x1024_S1024x1024_1_0_0_1_n_n.contr.Idx) : (dot_S1024x1024_S1024x1024_S1024x1024_1_0_0_1_n_n.rhsIdx j κ 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
theorem dense_rhs_0 (j : S1024x1024.Idx) (κ : dot_S1024x1024_S1024x1024_S1024x1024_1_0_0_1_n_n.contr.Idx) : (dot_S1024x1024_S1024x1024_S1024x1024_1_0_0_1_n_n.rhsIdx j κ 0).val = (κ ⟨0, by decide⟩).val :=
  dot_S1024x1024_S1024x1024_S1024x1024_1_0_0_1_n_n.rhsIdx_val_of_single rfl j κ

/-- The dense product, rows by rows of the right operand: entry (p, q) of the product into the zero accumulator is the sum over the contracted axis. -/
theorem dense_apply (l : FVec Ideal S1024x1024 .bf16) (r : FVec Ideal S1024x1024 .bf16) (p : Fin 1024) (q : Fin 1024) :
    matmul (F := Ideal) dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact dense_lhs_0 _ _
    | ⟨1, _⟩ => exact (dense_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨1, _⟩ => exact dense_rhs_1 _ _
    | ⟨0, _⟩ => exact (dense_rhs_0 _ _).trans hk)
  rw [el, er]

/-! ### The projection onto the 32 rank directions, the right operand stored transposed -/

theorem proj_lhs_0 (j : S1024x32.Idx) (κ : dot_S1024x1024_S32x1024_S1024x32_1_1_0_0_n_n.contr.Idx) : (dot_S1024x1024_S32x1024_S1024x32_1_1_0_0_n_n.lhsIdx j κ 0).val = (j 0).val := by
  unfold DotDims.lhsIdx
  rw [dif_neg (show ¬(0 : Fin S1024x1024.rank) ∈ dot_S1024x1024_S32x1024_S1024x32_1_1_0_0_n_n.lhsBatch by decide), dif_pos (show (0 : Fin S1024x1024.rank) ∈ dot_S1024x1024_S32x1024_S1024x32_1_1_0_0_n_n.lhsNonContracting by decide)]
  rfl
theorem proj_lhs_1 (j : S1024x32.Idx) (κ : dot_S1024x1024_S32x1024_S1024x32_1_1_0_0_n_n.contr.Idx) : (dot_S1024x1024_S32x1024_S1024x32_1_1_0_0_n_n.lhsIdx j κ 1).val = (κ ⟨0, by decide⟩).val :=
  dot_S1024x1024_S32x1024_S1024x32_1_1_0_0_n_n.lhsIdx_val_of_single rfl j κ
theorem proj_rhs_0 (j : S1024x32.Idx) (κ : dot_S1024x1024_S32x1024_S1024x32_1_1_0_0_n_n.contr.Idx) : (dot_S1024x1024_S32x1024_S1024x32_1_1_0_0_n_n.rhsIdx j κ 0).val = (j 1).val := by
  unfold DotDims.rhsIdx
  rw [dif_neg (show ¬(0 : Fin S32x1024.rank) ∈ dot_S1024x1024_S32x1024_S1024x32_1_1_0_0_n_n.rhsBatch by decide), dif_pos (show (0 : Fin S32x1024.rank) ∈ dot_S1024x1024_S32x1024_S1024x32_1_1_0_0_n_n.rhsNonContracting by decide)]
  rfl
theorem proj_rhs_1 (j : S1024x32.Idx) (κ : dot_S1024x1024_S32x1024_S1024x32_1_1_0_0_n_n.contr.Idx) : (dot_S1024x1024_S32x1024_S1024x32_1_1_0_0_n_n.rhsIdx j κ 1).val = (κ ⟨0, by decide⟩).val :=
  dot_S1024x1024_S32x1024_S1024x32_1_1_0_0_n_n.rhsIdx_val_of_single rfl j κ

/-- The projection onto the 32 rank directions, the right operand stored transposed: entry (p, q) of the product into the zero accumulator is the sum over the contracted axis. -/
theorem proj_apply (l : FVec Ideal S1024x1024 .bf16) (r : FVec Ideal S32x1024 .bf16) (p : Fin 1024) (q : Fin 32) :
    matmul (F := Ideal) dot_S1024x1024_S32x1024_S1024x32_1_1_0_0_n_n none l r (constant S1024x32 .f32 0x00000000#32) (ix2 p q)
      = ∑ k : Fin 1024, l (ix2 p k) * r (ix2 q k) := by
  simp only [matmul]
  rw [Ideal.matmul_constant_zero_apply, ← Equiv.sum_comp (contrEquiv1 dot_S1024x1024_S32x1024_S1024x32_1_1_0_0_n_n 1024 rfl rfl).symm]
  refine Finset.sum_congr rfl fun k _ => ?_
  have hk := contrEquiv1_symm_val dot_S1024x1024_S32x1024_S1024x32_1_1_0_0_n_n 1024 rfl rfl k
  have el : dot_S1024x1024_S32x1024_S1024x32_1_1_0_0_n_n.lhsIdx (ix2 p q) ((contrEquiv1 dot_S1024x1024_S32x1024_S1024x32_1_1_0_0_n_n 1024 rfl rfl).symm k) = ix2 p k := funext fun a => Fin.ext (by
    match a with
    | ⟨0, _⟩ => exact proj_lhs_0 _ _
    | ⟨1, _⟩ => exact (proj_lhs_1 _ _).trans hk)
  have er : dot_S1024x1024_S32x1024_S1024x32_1_1_0_0_n_n.rhsIdx (ix2 p q) ((contrEquiv1 dot_S1024x1024_S32x1024_S1024x32_1_1_0_0_n_n 1024 rfl rfl).symm k) = ix2 q k := funext fun a => Fin.ext (by
    match a with
    | ⟨0, _⟩ => exact proj_rhs_0 _ _
    | ⟨1, _⟩ => exact (proj_rhs_1 _ _).trans hk)
  rw [el, er]

/-! ### The lift from the 32 rank directions back to the output features -/

theorem lift_lhs_0 (j : S1024x1024.Idx) (κ : dot_S1024x32_S32x1024_S1024x1024_1_0_0_1_n_n.contr.Idx) : (dot_S1024x32_S32x1024_S1024x1024_1_0_0_1_n_n.lhsIdx j κ 0).val = (j 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem lift_lhs_1 (j : S1024x1024.Idx) (κ : dot_S1024x32_S32x1024_S1024x1024_1_0_0_1_n_n.contr.Idx) : (dot_S1024x32_S32x1024_S1024x1024_1_0_0_1_n_n.lhsIdx j κ 1).val = (κ ⟨0, by decide⟩).val :=
  dot_S1024x32_S32x1024_S1024x1024_1_0_0_1_n_n.lhsIdx_val_of_single rfl j κ
theorem lift_rhs_1 (j : S1024x1024.Idx) (κ : dot_S1024x32_S32x1024_S1024x1024_1_0_0_1_n_n.contr.Idx) : (dot_S1024x32_S32x1024_S1024x1024_1_0_0_1_n_n.rhsIdx j κ 1).val = (j 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl
theorem lift_rhs_0 (j : S1024x1024.Idx) (κ : dot_S1024x32_S32x1024_S1024x1024_1_0_0_1_n_n.contr.Idx) : (dot_S1024x32_S32x1024_S1024x1024_1_0_0_1_n_n.rhsIdx j κ 0).val = (κ ⟨0, by decide⟩).val :=
  dot_S1024x32_S32x1024_S1024x1024_1_0_0_1_n_n.rhsIdx_val_of_single rfl j κ

/-- The lift from the 32 rank directions back to the output features: entry (p, q) of the product into the zero accumulator is the sum over the contracted axis. -/
theorem lift_apply (l : FVec Ideal S1024x32 .bf16) (r : FVec Ideal S32x1024 .bf16) (p : Fin 1024) (q : Fin 1024) :
    matmul (F := Ideal) dot_S1024x32_S32x1024_S1024x1024_1_0_0_1_n_n none l r (constant S1024x1024 .f32 0x00000000#32) (ix2 p q)
      = ∑ k : Fin 32, l (ix2 p k) * r (ix2 k q) := by
  simp only [matmul]
  rw [Ideal.matmul_constant_zero_apply, ← Equiv.sum_comp (contrEquiv1 dot_S1024x32_S32x1024_S1024x1024_1_0_0_1_n_n 32 rfl rfl).symm]
  refine Finset.sum_congr rfl fun k _ => ?_
  have hk := contrEquiv1_symm_val dot_S1024x32_S32x1024_S1024x1024_1_0_0_1_n_n 32 rfl rfl k
  have el : dot_S1024x32_S32x1024_S1024x1024_1_0_0_1_n_n.lhsIdx (ix2 p q) ((contrEquiv1 dot_S1024x32_S32x1024_S1024x1024_1_0_0_1_n_n 32 rfl rfl).symm k) = ix2 p k := funext fun a => Fin.ext (by
    match a with
    | ⟨0, _⟩ => exact lift_lhs_0 _ _
    | ⟨1, _⟩ => exact (lift_lhs_1 _ _).trans hk)
  have er : dot_S1024x32_S32x1024_S1024x1024_1_0_0_1_n_n.rhsIdx (ix2 p q) ((contrEquiv1 dot_S1024x32_S32x1024_S1024x1024_1_0_0_1_n_n 32 rfl rfl).symm k) = ix2 k q := funext fun a => Fin.ext (by
    match a with
    | ⟨1, _⟩ => exact lift_rhs_1 _ _
    | ⟨0, _⟩ => exact (lift_rhs_0 _ _).trans hk)
  rw [el, er]

end Cert.KernelIdeal.Products

end
-- ==== Proof.Payload.lean ====
/-
  What the body stores, entry by entry.

  From its loaded blocks — 1024 rows xb of the flattened input, the weight Wt[k,o], the bias row b2[0,o] and the factors
  Vt[ρ,k], Ct[ρ,o] — the body computes (xb·Wt + b2) + ((xb·Vtᵀ)·Ct). Over the extended reals the roundings to a narrower
  float are the identity, the body's shape casts keep the shape, the bias row is repeated over the 1024 rows, and each
  product into the zero accumulator is a bare sum (`Products`). So entry (p, q) of the stored value is
      (Σ_k xb[p,k]·Wt[k,q] + b2[0,q]) + Σ_ρ (Σ_k xb[p,k]·Vt[ρ,k])·Ct[ρ,q],
  which is `rowEntry` of the blocks at (p, q).
-/
import proofs.«109856_j70317204570758_2_alg».proof.Proof.Gen.KernelIdeal.Skeleton
import proofs.«109856_j70317204570758_2_alg».proof.Proof.Products
import proofs.«109856_j70317204570758_2_alg».proof.Proof.Spec
import Idealize.ShloMosaic.Lib.Pipeline.Value
import Idealize.ShloMosaic.Lib.ValueLayout

noncomputable section

namespace Cert.KernelIdeal.Payload

open Cert.KernelIdeal Cert.KernelIdeal.Gen Cert.KernelIdeal.Products
open Idealize.ShloMosaic Idealize.ShloMosaic.ValueIdx Cert.CorrectedLinear
open scoped BigOperators

/-- Entry (p, q) of the body's stored value is the corrected linear map of row p of the input block. -/
theorem stored_apply (xb : FVec Ideal S1024x1024 .f32) (wt : FVec Ideal S1024x1024 .bf16) (vt ct : FVec Ideal S32x1024 .bf16)
    (b2 : FVec Ideal S1x1024 .f32) (p q : Fin 1024) :
    k0_pay1 (F := Ideal) xb wt vt ct b2 (ix2 p q) = rowEntry xb wt b2 vt ct p q := by
  unfold k0_pay1
  simp only [shapeCast_self]
  rw [addf_apply, addf_apply, dense_apply, lift_apply, broadcastTo_1b_ab_apply]
  simp only [truncf_apply, proj_apply]
  rfl

end Cert.KernelIdeal.Payload

end
-- ==== Proof.Blocks.lean ====
/-
  From blocks to the array: the region's output array after the run is `rowResult` of the arrays the region finds.

  The grid has 64 points. At point t the pipeline hands the body rows 1024·t … 1024·t + 1023 of the flattened input
  (all 1024 columns) and the whole of the four weight arrays, and writes the body's 1024 × 1024 result back to rows
  1024·t … of the output array. These relations between the index maps are decided once over the 64 points.

  Entry (p, q) of what point t stores is `rowEntry` of the blocks at (p, q) (`Payload.stored_apply`); a row entry depends on the
  input only through its row, and row p of the block is row 1024·t + p of the array; so the stored block is block t of the one
  whole-array function `rowResult`. Every row r lies in the block of the point r / 1024, so the 64 blocks cover the array,
  and the array after the run is that function.
-/
import proofs.«109856_j70317204570758_2_alg».proof.Proof.Gen.KernelIdeal.Frame
import proofs.«109856_j70317204570758_2_alg».proof.Proof.Payload
import proofs.«109856_j70317204570758_2_alg».proof.Proof.Spec
import Idealize.ShloMosaic.Lib.Pipeline.Value

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem Cert.CorrectedLinear
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The index maps over the 64 points: the input's and the output's row block is the point's number, every other block
    index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block of the output is some point's. -/
theorem index_onto : ∀ q0 : Fin 64, ∃ t : Fin cfg0.N, win0_5.index t = ![q0.val, 0] :=
  (by decide +kernel : ∀ q0 : Fin 64, ∃ t : Fin grid0.N, win0_5.index t = ![q0.val, 0])

/-! ### The input blocks, read off their arrays -/

/-- Element y of the input block at point t is the flattened input at row 1024·t + y₀, column y₁. -/
theorem input_block_apply (c : Dev nD) (t : Fin cfg0.N) (y : S1024x1024.Idx) (i : S65536x1024.Idx)
    (h0 : (i 0).val = t.val * 1024 + (y 0).val) (h1 : (i 1).val = (y 1).val) :
    iblk m c 0 t y = V m c main_v0 i := by
  obtain ⟨e0, e1, -⟩ := index_facts t
  show V m c main_v0 (((cfg0.win 0).blk t).view.emb y) = V m c main_v0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The weight block at every point is the whole transposed weight. -/
theorem weight_block (c : Dev nD) (t : Fin cfg0.N) : (iblk m c 1 t : S1024x1024.Idx → EReal) = V m c main_v2 := by
  obtain ⟨-, -, e0, e1, -⟩ := index_facts t
  funext y
  show V m c main_v2 (((cfg0.win 1).blk t).view.emb y) = V m c main_v2 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias block at every point is the whole bias row. -/
theorem bias_block (c : Dev nD) (t : Fin cfg0.N) : (iblk m c 2 t : S1x1024.Idx → EReal) = V m c main_v7 := by
  obtain ⟨-, -, -, -, e0, e1, -⟩ := index_facts t
  funext y
  show V m c main_v7 (((cfg0.win 2).blk t).view.emb y) = V m c main_v7 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The projection block at every point is the whole transposed V_r. -/
theorem proj_block (c : Dev nD) (t : Fin cfg0.N) : (iblk m c 3 t : S32x1024.Idx → EReal) = V m c main_v4 := by
  obtain ⟨-, -, -, -, -, -, e0, e1, -⟩ := index_facts t
  funext y
  show V m c main_v4 (((cfg0.win 3).blk t).view.emb y) = V m c main_v4 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 1024 + 1 * (y 1).val = (y 1).val; omega

/-- The lift block at every point is the whole transposed C. -/
theorem lift_block (c : Dev nD) (t : Fin cfg0.N) : (iblk m c 4 t : S32x1024.Idx → EReal) = V m c main_v6 := by
  obtain ⟨-, -, -, -, -, -, -, -, e0, e1, -⟩ := index_facts t
  funext y
  show V m c main_v6 (((cfg0.win 4).blk t).view.emb y) = V m c main_v6 y
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 1024 + 1 * (y 1).val = (y 1).val; omega

/-! ### What a point stores is a block of one whole-array function -/

/-- Over plain arrays: if the input block's row j₀ is the array's row i₀, the column is the same, and the four weight blocks
    are the whole weight arrays, then the stored value at j is `rowResult` of the arrays at i. -/
theorem stored_eq_rowResult (X : FVec Ideal S65536x1024 .f32) (wt : FVec Ideal S1024x1024 .bf16) (b2 : FVec Ideal S1x1024 .f32)
    (vt ct : FVec Ideal S32x1024 .bf16) (xb : FVec Ideal S1024x1024 .f32) (wb : FVec Ideal S1024x1024 .bf16)
    (bb : FVec Ideal S1x1024 .f32) (vb cb : FVec Ideal S32x1024 .bf16) (j : S1024x1024.Idx) (i : S65536x1024.Idx)
    (hx : ∀ k : Fin 1024, xb (ix2 (j 0) k) = X (ix2 (i 0) k)) (hw : wb = wt) (hb : bb = b2) (hv : vb = vt) (hc : cb = ct)
    (hq : (i 1).val = (j 1).val) :
    k0_pay1 (F := Ideal) xb wb vb cb bb j = rowResult X wt b2 vt ct i := by
  subst hw hb hv hc
  obtain ⟨p, q, rfl⟩ : ∃ p q : Fin 1024, j = ix2 p q := ⟨j 0, j 1, eq_ix2 j⟩
  obtain ⟨r, q', rfl⟩ : ∃ (r : Fin 65536) (q' : Fin 1024), i = ix2 r q' := ⟨i 0, i 1, eq_ix2 i⟩
  obtain rfl : q' = q := Fin.ext hq
  rw [stored_apply, rowResult_ix2]
  exact rowEntry_congr_row xb X wb bb vb cb p r q' hx

/-- WHAT POINT t WRITES BACK is block t of `rowResult` of the arrays the region finds. -/
theorem flushed_eq (c : Dev nD) (t : Fin cfg0.N) :
    (dats m 0 c).flushed 5 t = ((cfg0.win 5).blk t).view.read (Elt Ideal)
      (rowResult (V m c main_v0) (V m c main_v2) (V m c main_v7) (V m c main_v4) (V m c main_v6)) := by
  show (cfg0.win 5).cut (grid0.coords t) ((dats m 0 c).after 5 t) = _
  rw [after0_5]
  unfold out0_5
  rw [View.canon_unit_zero origin]
  simp only [View.ld_unit_zero (S := S1024x1024) origin, View.ld_unit_zero (S := S32x1024) origin, View.ld_unit_zero (S := S1x1024) origin]
  obtain ⟨-, -, -, -, -, -, -, -, -, -, e0, e1⟩ := index_facts t
  funext j
  show k0_pay1 (F := Ideal) (iblk m c 0 t) (iblk m c 1 t) (iblk m c 3 t) (iblk m c 4 t) (iblk m c 2 t) j
    = rowResult (V m c main_v0) (V m c main_v2) (V m c main_v7) (V m c main_v4) (V m c main_v6) (((cfg0.win 5).blk t).view.emb j)
  have hrow : ((((cfg0.win 5).blk t).view.emb j) 0).val = t.val * 1024 + (j 0).val := by
    show win0_5.index t (0 : Fin 2) * 1024 + 1 * (j 0).val = _; omega
  have hcol : ((((cfg0.win 5).blk t).view.emb j) 1).val = (j 1).val := by
    show win0_5.index t (1 : Fin 2) * 1024 + 1 * (j 1).val = _; omega
  exact stored_eq_rowResult (V m c main_v0) (V m c main_v2) (V m c main_v7) (V m c main_v4) (V m c main_v6)
    (iblk m c 0 t) (iblk m c 1 t) (iblk m c 2 t) (iblk m c 3 t) (iblk m c 4 t) j (((cfg0.win 5).blk t).view.emb j)
    (fun k => input_block_apply m c t (ix2 (j 0) k) (ix2 ((((cfg0.win 5).blk t).view.emb j) 0) k) hrow rfl)
    (weight_block m c t) (bias_block m c t) (proj_block m c t) (lift_block m c t) hcol

/-! ### The blocks cover the array -/

/-- An index of the array is in point t's block iff each coordinate is in the block's range on its axis. -/
theorem mem_blk (t : Fin cfg0.N) (i : S65536x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- Row r of the array lies in the block of point r / 1024. -/
theorem covered (i : S65536x1024.Idx) : ∃ t : Fin cfg0.N, (cfg0.win 5).flush t = true ∧ i ∈ ((cfg0.win 5).blk t).view.set := by
  have hi0 : (i 0).val < 65536 := (i 0).isLt
  have hi1 : (i 1).val < 1024 := (i 1).isLt
  obtain ⟨t, ht⟩ := index_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE OUTPUT ARRAY after the run is `rowResult` of the arrays the region finds. -/
theorem array_after (c : Dev nD) :
    (dats m 0 c).arrAt 5 cfg0.N = rowResult (V m c main_v0) (V m c main_v2) (V m c main_v7) (V m c main_v4) (V m c main_v6) :=
  (dats m 0 c).arrAt_eq_of_cover 5 _ (fun t _ => flushed_eq m c t) covered

end Cert.KernelIdeal.Blocks

end
-- ==== Proof.HostSide.lean ====
/-
  The host side: the arrays the region finds, and the reshape after it, read entry by entry.

  Before the region the program flattens x [8, 8192, 1024] to [65536, 1024] (row a·8192 + s is x[a, s, ·]), transposes W, V_r and C
  and rounds them to a narrower float (the identity on the extended reals), and turns the bias [1024] into one row [1, 1024].
  After the region it reshapes the [65536, 1024] result back to [8, 8192, 1024]. Read at an entry, a reshape keeps the row-major
  position and a transpose swaps the two coordinates. Hence `rowResult` of the arrays the region finds, at row a·8192 + s and
  column o, is `entry` of the launch arguments at (a, s, o) (`rowResult_found`).
-/
import proofs.«109856_j70317204570758_2_alg».proof.Proof.Gen.KernelIdeal.Frame
import proofs.«109856_j70317204570758_2_alg».proof.Proof.Spec
import Idealize.ShloMosaic.Lib.Pipeline.Value
import Idealize.ShloMosaic.Lib.ValueLayout
import Idealize.ShloMosaic.Lib.StableHlo.Run

noncomputable section

namespace Cert.KernelIdeal.HostSide

open Cert.KernelIdeal Cert.KernelIdeal.Gen
open Idealize.ShloMosaic Idealize.ShloMosaic.TcCoe Idealize.ShloMosaic.ValueIdx Idealize.SL.Sem Cert.CorrectedLinear
open Idealize.ShloMosaic.StableHlo

/-! ### Layout operations at an entry -/

/-- The flattened input at row a·8192 + s, column k, is x[a, s, k]. -/
theorem flatten_apply (x : FVec Ideal S8x8192x1024 .f32) (h : S8x8192x1024.ShapeCasts S65536x1024)
    (a : Fin 8) (s : Fin 8192) (k : Fin 1024) (hr : a.val * 8192 + s.val < 65536) :
    shapeCast S65536x1024 x h (ix2 ⟨a.val * 8192 + s.val, hr⟩ k) = x (ix3 a s k) :=
  shapeCast_apply x h _ _ (by rw [Shape.rowMajor_val_three, Shape.rowMajor_val_two]; rfl)

/-- The flat result reshaped to [8, 8192, 1024], at (a, s, o), is the flat result at row a·8192 + s, column o. -/
theorem unflatten_apply (Y : FVec Ideal S65536x1024 .f32) (h : S65536x1024.ShapeCasts S8x8192x1024)
    (a : Fin 8) (s : Fin 8192) (o : Fin 1024) (hr : a.val * 8192 + s.val < 65536) :
    shapeCast S8x8192x1024 Y h (ix3 a s o) = Y (ix2 ⟨a.val * 8192 + s.val, hr⟩ o) :=
  shapeCast_apply Y h _ _ (by rw [Shape.rowMajor_val_three, Shape.rowMajor_val_two]; rfl)

/-- The transposed and rounded weight at (k, o) is W[o, k]. -/
theorem weightT_apply (W : FVec Ideal S1024x1024 .f32) (h : S1024x1024.Transposes [1, 0] S1024x1024) (hb : FTy.bits .bf16 < FTy.bits .f32)
    (k o : Fin 1024) : (truncf .bf16 (transpose S1024x1024 [1, 0] W h) hb : FVec Ideal S1024x1024 .bf16) (ix2 k o) = W (ix2 o k) :=
  transpose_ix2_apply W h k o

/-- A transposed and rounded rank-32 factor at (ρ, k) is the factor at (k, ρ). -/
theorem factorT_apply (A : FVec Ideal S1024x32 .f32) (h : S1024x32.Transposes [1, 0] S32x1024) (hb : FTy.bits .bf16 < FTy.bits .f32)
    (ρ : Fin 32) (k : Fin 1024) : (truncf .bf16 (transpose S32x1024 [1, 0] A h) hb : FVec Ideal S32x1024 .bf16) (ix2 ρ k) = A (ix2 k ρ) :=
  transpose_ix2_apply A h ρ k

/-- The bias as one row, at (0, o), is b[o]. -/
theorem biasRow_apply (b : FVec Ideal S1024 .f32) (h : S1024.ShapeCasts S1x1024) (o : Fin 1024) :
    shapeCast S1x1024 b h (ix2 (0 : Fin 1) o) = b (ix1 o) :=
  shapeCast_a_1a_apply b h 0 o

/-- Over plain arrays: `rowResult` of the flattened, transposed layouts at row a·8192 + s is `entry` of the originals at (a, s, ·). -/
theorem rowResult_layouts (x : FVec Ideal S8x8192x1024 .f32) (W : FVec Ideal S1024x1024 .f32) (b : FVec Ideal S1024 .f32)
    (Vr C : FVec Ideal S1024x32 .f32) (hx : S8x8192x1024.ShapeCasts S65536x1024) (hW : S1024x1024.Transposes [1, 0] S1024x1024)
    (hF : S1024x32.Transposes [1, 0] S32x1024) (hb : S1024.ShapeCasts S1x1024) (hbits : FTy.bits .bf16 < FTy.bits .f32)
    (a : Fin 8) (s : Fin 8192) (o : Fin 1024) (hr : a.val * 8192 + s.val < 65536) :
    rowResult (shapeCast S65536x1024 x hx) (truncf .bf16 (transpose S1024x1024 [1, 0] W hW) hbits : FVec Ideal S1024x1024 .bf16)
        (shapeCast S1x1024 b hb) (truncf .bf16 (transpose S32x1024 [1, 0] Vr hF) hbits : FVec Ideal S32x1024 .bf16)
        (truncf .bf16 (transpose S32x1024 [1, 0] C hF) hbits : FVec Ideal S32x1024 .bf16) (ix2 ⟨a.val * 8192 + s.val, hr⟩ o)
      = entry x W b Vr C a s o := by
  rw [rowResult_ix2]
  exact rowEntry_eq_entry x W b Vr C _ _ _ _ _ _ a s o
    (fun k => flatten_apply x hx a s k hr) (fun k => weightT_apply W hW hbits k o) (biasRow_apply b hb o)
    (fun ρ k => factorT_apply Vr hF hbits ρ k) (fun ρ => factorT_apply C hF hbits ρ o)

/-! ### The arrays the region finds -/

variable (m : (ℓ : Loc nD τ sig) → Buf (Elt Ideal) ℓ)

/-- The region finds the flattened input, -/
theorem found_input (c : Dev nD) : (V m c main_v0 : S65536x1024.Idx → EReal)
    = shapeCast S65536x1024 (m ((c : Thread nD τ).loc main_arg0)) shapeCasts_S8x8192x1024_S65536x1024 := by
  show StableHlo.after hostOps0 (fun b => m (c, b)) (Proc.devRef .tc main_v0) = _
  after_results
  rfl
/-- the transposed weight, -/
theorem found_weight (c : Dev nD) : (V m c main_v2 : S1024x1024.Idx → EReal)
    = (truncf .bf16 (transpose S1024x1024 [1, 0] (m ((c : Thread nD τ).loc main_arg1)) transposes_S1024x1024_S1024x1024_1_0) bitsLt_bf16_f32 : FVec Ideal S1024x1024 .bf16) := by
  show StableHlo.after hostOps0 (fun b => m (c, b)) (Proc.devRef .tc main_v2) = _
  after_results
/-- the transposed V_r, -/
theorem found_proj (c : Dev nD) : (V m c main_v4 : S32x1024.Idx → EReal)
    = (truncf .bf16 (transpose S32x1024 [1, 0] (m ((c : Thread nD τ).loc main_arg3)) transposes_S1024x32_S32x1024_1_0) bitsLt_bf16_f32 : FVec Ideal S32x1024 .bf16) := by
  show StableHlo.after hostOps0 (fun b => m (c, b)) (Proc.devRef .tc main_v4) = _
  after_results
/-- the transposed C, -/
theorem found_lift (c : Dev nD) : (V m c main_v6 : S32x1024.Idx → EReal)
    = (truncf .bf16 (transpose S32x1024 [1, 0] (m ((c : Thread nD τ).loc main_arg4)) transposes_S1024x32_S32x1024_1_0) bitsLt_bf16_f32 : FVec Ideal S32x1024 .bf16) := by
  show StableHlo.after hostOps0 (fun b => m (c, b)) (Proc.devRef .tc main_v6) = _
  after_results
/-- and the bias as one row. -/
theorem found_bias (c : Dev nD) : (V m c main_v7 : S1x1024.Idx → EReal)
    = shapeCast S1x1024 (m ((c : Thread nD τ).loc main_arg2)) shapeCasts_S1024_S1x1024 := by
  show StableHlo.after hostOps0 (fun b => m (c, b)) (Proc.devRef .tc main_v7) = _
  after_results
  rfl

/-- `rowResult` of the arrays the region finds, at row a·8192 + s and column o, is `entry` of the launch arguments at (a, s, o). -/
theorem rowResult_found (c : Dev nD) (a : Fin 8) (s : Fin 8192) (o : Fin 1024) (hr : a.val * 8192 + s.val < 65536) :
    rowResult (V m c main_v0) (V m c main_v2) (V m c main_v7) (V m c main_v4) (V m c main_v6) (ix2 ⟨a.val * 8192 + s.val, hr⟩ o)
      = entry (m ((c : Thread nD τ).loc main_arg0)) (m ((c : Thread nD τ).loc main_arg1)) (m ((c : Thread nD τ).loc main_arg2))
          (m ((c : Thread nD τ).loc main_arg3)) (m ((c : Thread nD τ).loc main_arg4)) a s o := by
  rw [found_input m c, found_weight m c, found_bias m c, found_proj m c, found_lift m c]
  exact rowResult_layouts _ _ _ _ _ _ _ _ _ _ a s o hr

end Cert.KernelIdeal.HostSide

end
-- ==== Proof.KernelRun.lean ====
/-
  The kernel program's run, with its result named.

  Every execution of the program ends with its five arguments unchanged and with its result array — the region's output
  array reshaped from [65536, 1024] to [8, 8192, 1024] — equal to `result` of the arguments as launched:
    * the region's output array is `rowResult` of the arrays the region finds (`Blocks.array_after`);
    * the reshape reads entry (a, s, o) from row a·8192 + s, column o of it (`HostSide.unflatten_apply`);
    * and there `rowResult` of the found arrays is `entry` of the launch arguments at (a, s, o) (`HostSide.rowResult_found`).
-/
import proofs.«109856_j70317204570758_2_alg».proof.Proof.Blocks
import proofs.«109856_j70317204570758_2_alg».proof.Proof.HostSide
import Idealize.ShloMosaic.Lib.StableHlo.Run

noncomputable section

namespace Cert.KernelIdeal.KernelRun

open Cert.KernelIdeal Cert.KernelIdeal.Gen Cert.KernelIdeal.Blocks Cert.KernelIdeal.HostSide
open Idealize.ShloMosaic Idealize.ShloMosaic.TcCoe Idealize.ShloMosaic.ValueIdx Idealize.SL.Sem Cert.CorrectedLinear
open Idealize.ShloMosaic.StableHlo

variable (m : (ℓ : Loc nD τ sig) → Buf (Elt Ideal) ℓ) (ρ : Dev nD → PrngReg)

/-- What the lines after the region leave in the result buffer is `result` of the launch arguments. -/
theorem result_after (c : Dev nD) :
    Pipeline.afterTail₀ cfgs (dats m) 0 (V0 m) [hostOps1] c main_v9
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v9) = _
  after_results
  have hY : Pipeline.withArrays (cfgs 0).spec c (V0 m c) (fun w => (dats m 0 c).arrAt w (cfgs 0).N) (Proc.devRef .tc main_v8)
      = rowResult (V m c main_v0) (V m c main_v2) (V m c main_v7) (V m c main_v4) (V m c main_v6) :=
    (Pipeline.withArrays_arr spec0 launch0.win.arr_inj c _ _ 5).trans (array_after m c)
  funext i
  obtain ⟨a, s, o, rfl⟩ : ∃ (a : Fin 8) (s : Fin 8192) (o : Fin 1024), i = ix3 a s o := ⟨i 0, i 1, i 2, eq_ix3 i⟩
  have hr : a.val * 8192 + s.val < 65536 := by omega
  show shapeCast S8x8192x1024 (Pipeline.withArrays (cfgs 0).spec c (V0 m c) (fun w => (dats m 0 c).arrAt w (cfgs 0).N) (Proc.devRef .tc main_v8))
    shapeCasts_S65536x1024_S8x8192x1024 (ix3 a s o) = _
  rw [hY, result_ix3]
  exact (unflatten_apply _ _ a s o hr).trans (rowResult_found m c a s o hr)

/-- THE RUN: every weakly fair execution terminates, the result buffer holds `result` of the arguments, the arguments are unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.lean ====
/-
  A linear layer with a low-rank correction, fused in one kernel, against its plain reference.

  For x [8, 8192, 1024], W [1024, 1024], b [1024], V_r [1024, 32] and C [1024, 32] both programs compute, at entry (a, s, o),

      ( Σ_k x[a,s,k] · W[o,k]  +  b[o] )  +  Σ_ρ ( Σ_k x[a,s,k] · V_r[k,ρ] ) · C[o,ρ]

  over the extended reals (`CorrectedLinear.result`, Proof/Spec.lean).

  The reference does so directly, with three contractions and two additions (Proof/RefValue.lean, over the generated
  reading of its run). The kernel program flattens x to 65536 rows, transposes the three weight arrays and rounds them to a
  narrower float — the identity on the extended reals —, and runs a grid of 64 points, each of which multiplies 1024 rows by
  the transposed weight, adds the bias row, and adds the two-step low-rank product; the result is reshaped back. Entry by
  entry the stored block is the same double sum over the same summands (Proof/Products.lean, Proof/Payload.lean), the 64 blocks
  tile the output (Proof/Blocks.lean), and the flattened and transposed layouts hold the original numbers at the
  corresponding positions (Proof/HostSide.lean); Proof/KernelRun.lean puts these together. The two sums are grouped and
  ordered alike and no term is moved across a sum, so the equality uses no law of arithmetic that could fail at an infinity:
  the precondition that the inputs are finite is never opened.

  The three frame conjuncts are the generated frames of the two kernel programs and the reference's generated run with its
  result dropped; the idealization rewrote nothing, so the fourth conjunct is `True`.
-/
import proofs.«109856_j70317204570758_2_alg».proof.Defs
import proofs.«109856_j70317204570758_2_alg».proof.Proof.Gen.Kernel
import proofs.«109856_j70317204570758_2_alg».proof.Proof.Gen.Kernel.Skeleton
import proofs.«109856_j70317204570758_2_alg».proof.Proof.Gen.Kernel.Launch
import proofs.«109856_j70317204570758_2_alg».proof.Proof.Gen.Kernel.Points
import proofs.«109856_j70317204570758_2_alg».proof.Proof.Gen.Kernel.Frame
import proofs.«109856_j70317204570758_2_alg».proof.Proof.Gen.KernelIdeal
import proofs.«109856_j70317204570758_2_alg».proof.Proof.Gen.KernelIdeal.Skeleton
import proofs.«109856_j70317204570758_2_alg».proof.Proof.Gen.KernelIdeal.Launch
import proofs.«109856_j70317204570758_2_alg».proof.Proof.Gen.KernelIdeal.Points
import proofs.«109856_j70317204570758_2_alg».proof.Proof.Gen.KernelIdeal.Frame
import proofs.«109856_j70317204570758_2_alg».proof.Proof.Gen.ReferenceIdeal
import proofs.«109856_j70317204570758_2_alg».proof.Proof.Gen.ReferenceIdeal.Read
import proofs.«109856_j70317204570758_2_alg».proof.Proof.Gen.Pre_finite_inputs
import proofs.«109856_j70317204570758_2_alg».proof.Proof.RefValue
import proofs.«109856_j70317204570758_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with `result` of those arguments. -/
theorem algebraic : Cert.algebraic_KernelIdeal_ReferenceIdeal := by
  intro m ρ m' ρ' _ hagree
  refine ⟨fun c => Cert.CorrectedLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
